-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_leaky_alpha" .f32 0x40555555#32 ((16777216 / 5033165 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S64x64 : Shape := ⟨2, ![64, 64]⟩
abbrev S2400000 : Shape := ⟨1, ![2400000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S64x64 : S_.BroadcastsInDim S64x64 (![] : Fin 0 → Fin S64x64.rank)
  reducesTo_S64x64_S_d0_1 : S64x64.ReducesTo [0, 1] S_
  bcast_S_S2400000 : S_.BroadcastsInDim S2400000 (![] : Fin 0 → Fin S2400000.rank)
  reducesTo_S2400000_S_d0 : S2400000.ReducesTo [0] S_

variable [Facts]

def fn_part1 {F : FTy → Type} [FloatOps F] (main_arg4 : FVec F S2400000 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S2400000 .f32 := Host.absf main_arg4
  let main_cst_6 : FVec F S_ .f32 := constant S_ .f32 0x7F800000#32
  let main_v20 : FVec F S2400000 .f32 := broadcastInDim S2400000 ![] bcast_S_S2400000 main_cst_6
  let main_v21 : IVec S2400000 1 := cmpf .olt main_v19 main_v20
  let main_c_7 : IVec S_ 1 := constantI S_ 1 1#1
  let main_v22 : IVec S_ 1 := (fun x v => Host.reduce IntOp.andi x v reducesTo_S2400000_S_d0 h_S_) main_v21 main_c_7
  let main_v23 : IVec S_ 1 := andi main_v18 main_v22
  main_v23

def fn {F : FTy → Type} [FloatOps F] (main_arg0 : FVec F S100000x64 .f32) (main_arg1 : FVec F S50000x64 .f32) (main_arg2 : FVec F S64x64 .f32) (main_arg3 : FVec F S64x64 .f32) (main_arg4 : FVec F S2400000 .f32) (main_arg5 : IVec S2400000 32) (main_arg6 : IVec S2400000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S100000x64 : Shape := ⟨2, ![100000, 64]⟩
abbrev S50000x64 : Shape := ⟨2, ![50000, 64]⟩
abbrev S64x64 : Shape := ⟨2, ![64, 64]⟩
abbrev S2400000 : Shape := ⟨1, ![2400000]⟩
abbrev S150000x64 : Shape := ⟨2, ![150000, 64]⟩
abbrev S2400000x1 : Shape := ⟨2, ![2400000, 1]⟩
abbrev S_ : Shape := ⟨0, ![]⟩
abbrev S2400000x64 : Shape := ⟨2, ![2400000, 64]⟩
abbrev S75000x128 : Shape := ⟨2, ![75000, 128]⟩
abbrev S64x128 : Shape := ⟨2, ![64, 128]⟩
abbrev S128x128 : Shape := ⟨2, ![128, 128]⟩
abbrev S5000x128 : Shape := ⟨2, ![5000, 128]⟩

abbrev nBuf : Space → Nat
  | .hbm => 61
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S64x64, .f32⟩
  | .hbm, ⟨3, _⟩ => ⟨S64x64, .f32⟩
  | .hbm, ⟨4, _⟩ => ⟨S2400000, .f32⟩
  | .hbm, ⟨5, _⟩ => ⟨S2400000, .i32⟩
  | .hbm, ⟨6, _⟩ => ⟨S2400000, .i32⟩
  | .hbm, ⟨7, _⟩ => ⟨S150000x64, .f32⟩
  | .hbm, ⟨8, _⟩ => ⟨S2400000x1, .f32⟩
  | .hbm, ⟨9, _⟩ => ⟨S_, .i32⟩
  | .hbm, ⟨10, _⟩ => ⟨S2400000, .i32⟩
  | .hbm, ⟨11, _⟩ => ⟨S2400000, .i1⟩
  | .hbm, ⟨12, _⟩ => ⟨S_, .i32⟩
  | .hbm, ⟨13, _⟩ => ⟨S2400000, .i32⟩
  | .hbm, ⟨14, _⟩ => ⟨S2400000, .i32⟩
  | .hbm, ⟨15, _⟩ => ⟨S2400000, .i32⟩
  | .hbm, ⟨16, _⟩ => ⟨S2400000x1, .i32⟩
  | .hbm, ⟨17, _⟩ => ⟨S2400000x64, .f32⟩
  | .hbm, ⟨18, _⟩ => ⟨S2400000x64, .f32⟩
  | .hbm, ⟨19, _⟩ => ⟨S2400000x64, .f32⟩
  | .hbm, ⟨20, _⟩ => ⟨S_, .f32⟩
  | .hbm, ⟨21, _⟩ => ⟨S150000x64, .f32⟩
  | .hbm, ⟨22, _⟩ => ⟨S2400000x1, .i32⟩
  | .hbm, ⟨23, _⟩ => ⟨S150000x64, .f32⟩
  | .hbm, ⟨24, _⟩ => ⟨S75000x128, .f32⟩
  | .hbm, ⟨25, _⟩ => ⟨S75000x128, .f32⟩
  | .hbm, ⟨26, _⟩ => ⟨S64x64, .f32⟩
  | .hbm, ⟨27, _⟩ => ⟨S_, .f32⟩
  | .hbm, ⟨28, _⟩ => ⟨S64x64, .f32⟩
  | .hbm, ⟨29, _⟩ => ⟨S64x128, .f32⟩
  | .hbm, ⟨30, _⟩ => ⟨S64x128, .f32⟩
  | .hbm, ⟨31, _⟩ => ⟨S128x128, .f32⟩
  | .hbm, ⟨32, _⟩ => ⟨S64x64, .f32⟩
  | .hbm, ⟨33, _⟩ => ⟨S_, .f32⟩
  | .hbm, ⟨34, _⟩ => ⟨S64x64, .f32⟩
  | .hbm, ⟨35, _⟩ => ⟨S64x128, .f32⟩
  | .hbm, ⟨36, _⟩ => ⟨S64x128, .f32⟩
  | .hbm, ⟨37, _⟩ => ⟨S128x128, .f32⟩
  | .hbm, ⟨38, _⟩ => ⟨S75000x128, .f32⟩
  | .hbm, ⟨39, _⟩ => ⟨S150000x64, .f32⟩
  | .hbm, ⟨40, _⟩ => ⟨S2400000x1, .f32⟩
  | .hbm, ⟨41, _⟩ => ⟨S_, .i32⟩
  | .hbm, ⟨42, _⟩ => ⟨S2400000, .i32⟩
  | .hbm, ⟨43, _⟩ => ⟨S2400000, .i1⟩
  | .hbm, ⟨44, _⟩ => ⟨S_, .i32⟩
  | .hbm, ⟨45, _⟩ => ⟨S2400000, .i32⟩
  | .hbm, ⟨46, _⟩ => ⟨S2400000, .i32⟩
  | .hbm, ⟨47, _⟩ => ⟨S2400000, .i32⟩
  | .hbm, ⟨48, _⟩ => ⟨S2400000x1, .i32⟩
  | .hbm, ⟨49, _⟩ => ⟨S2400000x64, .f32⟩
  | .hbm, ⟨50, _⟩ => ⟨S2400000x64, .f32⟩
  | .hbm, ⟨51, _⟩ => ⟨S2400000x64, .f32⟩
  | .hbm, ⟨52, _⟩ => ⟨S_, .f32⟩
  | .hbm, ⟨53, _⟩ => ⟨S150000x64, .f32⟩
  | .hbm, ⟨54, _⟩ => ⟨S2400000x1, .i32⟩
  | .hbm, ⟨55, _⟩ => ⟨S150000x64, .f32⟩
  | .hbm, ⟨56, _⟩ => ⟨S75000x128, .f32⟩
  | .hbm, ⟨57, _⟩ => ⟨S75000x128, .f32⟩
  | .hbm, ⟨58, _⟩ => ⟨S150000x64, .f32⟩
  | .hbm, ⟨59, _⟩ => ⟨S100000x64, .f32⟩
  | .hbm, ⟨60, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_3 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  concatenates_S100000x64_S50000x64_S150000x64_d0 : Shape.Concatenates [S100000x64, S50000x64] S150000x64 0
  bcast_S2400000_S2400000x1_0 : S2400000.BroadcastsInDim S2400000x1 (![0] : Fin 1 → Fin S2400000x1.rank)
  bcast_S_S2400000 : S_.BroadcastsInDim S2400000 (![] : Fin 0 → Fin S2400000.rank)
  bcast_S2400000x1_S2400000x64_0_1 : S2400000x1.BroadcastsInDim S2400000x64 (![0, 1] : Fin 2 → Fin S2400000x64.rank)
  bcast_S_S150000x64 : S_.BroadcastsInDim S150000x64 (![] : Fin 0 → Fin S150000x64.rank)
  shapeCasts_S150000x64_S75000x128 : S150000x64.ShapeCasts S75000x128
  transposes_S64x64_S64x64_1_0 : S64x64.Transposes [1, 0] S64x64
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S75000x128_S150000x64 : S75000x128.ShapeCasts S150000x64
  slices_S150000x64_S100000x64_0_0 : S150000x64.Slices ![0, 0] S100000x64
  slices_S150000x64_S50000x64_100000_0 : S150000x64.Slices ![100000, 0] S50000x64
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S75000x128.size a
  hwx0_0 : ∀ i : grid0.Coords, EltTy.bits .f32 = 32 ∨ (Rect.block (s := S75000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S75000x128.size a
  hwx0_2 : ∀ i : grid0.Coords, EltTy.bits .f32 = 32 ∨ (Rect.block (s := S75000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S75000x128.size a
  hwx1_0 : ∀ i : grid1.Coords, EltTy.bits .f32 = 32 ∨ (Rect.block (s := S75000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S75000x128.size a
  hwx1_2 : ∀ i : grid1.Coords, EltTy.bits .f32 = 32 ∨ (Rect.block (s := S75000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S75000x128.size a
  hwx1_3 : ∀ i : grid1.Coords, EltTy.bits .f32 = 32 ∨ (Rect.block (s := S75000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S75000x128.size a
  hwx1_4 : ∀ i : grid1.Coords, EltTy.bits .f32 = 32 ∨ (Rect.block (s := S75000x128) S5000x128.size (cc1_transform_4 i) (hinb1_4 i)).WholeWords (EltTy.packing .f32)

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v42) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S64x64 : Shape := ⟨2, ![64, 64]⟩
abbrev S2400000 : Shape := ⟨1, ![2400000]⟩
abbrev S150000x64 : Shape := ⟨2, ![150000, 64]⟩
abbrev S2400000x1 : Shape := ⟨2, ![2400000, 1]⟩
abbrev S_ : Shape := ⟨0, ![]⟩
abbrev S2400000x64 : Shape := ⟨2, ![2400000, 64]⟩

abbrev nBuf : Space → Nat
  | .hbm => 59
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S64x64, .f32⟩
  | .hbm, ⟨3, _⟩ => ⟨S64x64, .f32⟩
  | .hbm, ⟨4, _⟩ => ⟨S2400000, .f32⟩
  | .hbm, ⟨5, _⟩ => ⟨S2400000, .i32⟩
  | .hbm, ⟨6, _⟩ => ⟨S2400000, .i32⟩
  | .hbm, ⟨7, _⟩ => ⟨S150000x64, .f32⟩
  | .hbm, ⟨8, _⟩ => ⟨S2400000x1, .f32⟩
  | .hbm, ⟨9, _⟩ => ⟨S_, .i32⟩
  | .hbm, ⟨10, _⟩ => ⟨S2400000, .i32⟩
  | .hbm, ⟨11, _⟩ => ⟨S2400000, .i1⟩
  | .hbm, ⟨12, _⟩ => ⟨S_, .i32⟩
  | .hbm, ⟨13, _⟩ => ⟨S2400000, .i32⟩
  | .hbm, ⟨14, _⟩ => ⟨S2400000, .i32⟩
  | .hbm, ⟨15, _⟩ => ⟨S2400000, .i32⟩
  | .hbm, ⟨16, _⟩ => ⟨S2400000x1, .i32⟩
  | .hbm, ⟨17, _⟩ => ⟨S2400000x64, .f32⟩
  | .hbm, ⟨18, _⟩ => ⟨S2400000x64, .f32⟩
  | .hbm, ⟨19, _⟩ => ⟨S2400000x64, .f32⟩
  | .hbm, ⟨20, _⟩ => ⟨S_, .f32⟩
  | .hbm, ⟨21, _⟩ => ⟨S150000x64, .f32⟩
  | .hbm, ⟨22, _⟩ => ⟨S2400000x1, .i32⟩
  | .hbm, ⟨23, _⟩ => ⟨S150000x64, .f32⟩
  | .hbm, ⟨24, _⟩ => ⟨S64x64, .f32⟩
  | .hbm, ⟨25, _⟩ => ⟨S150000x64, .f32⟩
  | .hbm, ⟨26, _⟩ => ⟨S_, .f32⟩
  | .hbm, ⟨27, _⟩ => ⟨S150000x64, .f32⟩
  | .hbm, ⟨28, _⟩ => ⟨S150000x64, .i1⟩
  | .hbm, ⟨29, _⟩ => ⟨S_, .f32⟩
  | .hbm, ⟨30, _⟩ => ⟨S150000x64, .f32⟩
  | .hbm, ⟨31, _⟩ => ⟨S150000x64, .f32⟩
  | .hbm, ⟨32, _⟩ => ⟨S150000x64, .f32⟩
  | .hbm, ⟨33, _⟩ => ⟨S2400000x1, .f32⟩
  | .hbm, ⟨34, _⟩ => ⟨S_, .i32⟩
  | .hbm, ⟨35, _⟩ => ⟨S2400000, .i32⟩
  | .hbm, ⟨36, _⟩ => ⟨S2400000, .i1⟩
  | .hbm, ⟨37, _⟩ => ⟨S_, .i32⟩
  | .hbm, ⟨38, _⟩ => ⟨S2400000, .i32⟩
  | .hbm, ⟨39, _⟩ => ⟨S2400000, .i32⟩
  | .hbm, ⟨40, _⟩ => ⟨S2400000, .i32⟩
  | .hbm, ⟨41, _⟩ => ⟨S2400000x1, .i32⟩
  | .hbm, ⟨42, _⟩ => ⟨S2400000x64, .f32⟩
  | .hbm, ⟨43, _⟩ => ⟨S2400000x64, .f32⟩
  | .hbm, ⟨44, _⟩ => ⟨S2400000x64, .f32⟩
  | .hbm, ⟨45, _⟩ => ⟨S_, .f32⟩
  | .hbm, ⟨46, _⟩ => ⟨S150000x64, .f32⟩
  | .hbm, ⟨47, _⟩ => ⟨S2400000x1, .i32⟩
  | .hbm, ⟨48, _⟩ => ⟨S150000x64, .f32⟩
  | .hbm, ⟨49, _⟩ => ⟨S64x64, .f32⟩
  | .hbm, ⟨50, _⟩ => ⟨S150000x64, .f32⟩
  | .hbm, ⟨51, _⟩ => ⟨S150000x64, .f32⟩
  | .hbm, ⟨52, _⟩ => ⟨S150000x64, .f32⟩
  | .hbm, ⟨53, _⟩ => ⟨S150000x64, .f32⟩
  | .hbm, ⟨54, _⟩ => ⟨S_, .f32⟩
  | .hbm, ⟨55, _⟩ => ⟨S150000x64, .f32⟩
  | .hbm, ⟨56, _⟩ => ⟨S150000x64, .f32⟩
  | .hbm, ⟨57, _⟩ => ⟨S100000x64, .f32⟩
  | .hbm, ⟨58, _⟩ => ⟨S50000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S2400000_S2400000x1_0 : S2400000.BroadcastsInDim S2400000x1 (![0] : Fin 1 → Fin S2400000x1.rank)
  bcast_S_S2400000 : S_.BroadcastsInDim S2400000 (![] : Fin 0 → Fin S2400000.rank)
  bcast_S2400000x1_S2400000x64_0_1 : S2400000x1.BroadcastsInDim S2400000x64 (![0, 1] : Fin 2 → Fin S2400000x64.rank)
  bcast_S_S150000x64 : S_.BroadcastsInDim S150000x64 (![] : Fin 0 → Fin S150000x64.rank)
  transposes_S64x64_S64x64_1_0 : S64x64.Transposes [1, 0] S64x64
  slices_S150000x64_S100000x64_0_0 : S150000x64.Slices ![0, 0] S100000x64
  slices_S150000x64_S50000x64_100000_0 : S150000x64.Slices ![100000, 0] S50000x64
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  dot_S150000x64_S64x64_S150000x64_1_0_0_1_n_n_wf : DotDims.WF S150000x64 S64x64 S150000x64 [1] [0] [0] [1] [] []

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf
def dot_S150000x64_S64x64_S150000x64_1_0_0_1_n_n : DotDims S150000x64 S64x64 S150000x64 where
  lhsContracting := [1]
  rhsContracting := [0]
  lhsNonContracting := [0]
  rhsNonContracting := [1]
  lhsBatch := []
  rhsBatch := []
  wf := dot_S150000x64_S64x64_S150000x64_1_0_0_1_n_n_wf

class Facts : Prop extends Facts₀ where

variable [Facts]
-- ==== Proof.Spec.lean ====
/-
  The mathematics of the two-layer graph convolution, on the extended reals, with no program in sight.

  * The slope function x ↦ (x if 0 ≤ x, else D·x) with D = 5033165/16777216 > 0, and the map that undoes it,
    y ↦ (y if 0 ≤ y, else y·(1/D)): the second after the first is the identity on every extended real,
    the infinities included (D·(−∞) = −∞ and (−∞)·(1/D) = −∞; +∞ is nonnegative and is kept by both).
  * A 150000×64 array seen as 75000×128 (row i of the view is rows 2i and 2i+1 laid side by side), and back.
  * The 128×128 block-diagonal matrix [[w, 0], [0, w]] of a 64×64 matrix w.
  * A row of the paired view times the block-diagonal matrix is the two original rows times w, side by side:
    the 128 terms of the contraction split into two halves of 64; in one half every term is x·0 = 0.
-/
import Idealize.ShloMosaic.Lib.ValueIdx
import Idealize.ShloMosaic.PureOps.Ideal.Laws

noncomputable section

open scoped BigOperators

namespace Cert.GraphConv

open Idealize.ShloMosaic Idealize.ShloMosaic.ValueIdx

abbrev Nodes : Shape := ⟨2, ![150000, 64]⟩
abbrev Pairs : Shape := ⟨2, ![75000, 128]⟩
abbrev Sq : Shape := ⟨2, ![64, 64]⟩
abbrev Sq2 : Shape := ⟨2, ![128, 128]⟩

/-! ## The two words -/

/-- The word of +0.0 is 0. -/
theorem zero_word : Ideal.ofBits .f32 0x00000000#32 = 0 := by
  simp [Ideal.ofBits, Ideal.ieee]

/-- The word 0x3E99999A (the single-precision number nearest 0.3) is the rational 5033165/16777216. -/
theorem slope_word : Ideal.ofBits .f32 0x3E99999A#32 = ((5033165 / 16777216 : ℝ) : EReal) := by
  simp [Ideal.ofBits, Ideal.ieee, -EReal.coe_mul]; norm_num

/-! ## The slope function and its inverse -/

/-- x where 0 ≤ x, D·x elsewhere. -/
def leaky (x : EReal) : EReal :=
  Scalar.select (Ideal.cmp .oge x (Ideal.ofBits .f32 0x00000000#32)) x (Ideal.ofBits .f32 0x3E99999A#32 * x)

/-- y where 0 ≤ y, y·(1/D) elsewhere. -/
def unleaky (y : EReal) : EReal :=
  Scalar.select (Ideal.cmp .oge y (Ideal.ofBits .f32 0x00000000#32)) y (y * ((16777216 / 5033165 : ℝ) : EReal))

theorem select_decide (p : Prop) [Decidable p] (a b : EReal) :
    Scalar.select (BitVec.ofBool (decide p)) a b = if p then a else b := by
  by_cases h : p <;> simp [Scalar.select, h]

/-- Undoing the slope function gives the argument back, at every extended real. -/
theorem unleaky_leaky (x : EReal) : unleaky (leaky x) = x := by
  unfold unleaky leaky Ideal.cmp
  simp only [select_decide, zero_word, slope_word]
  by_cases h : (0 : EReal) ≤ x
  · rw [if_pos h, if_pos h]
  · rw [if_neg h]
    induction x using EReal.rec with
    | bot =>
      have e : ((5033165 / 16777216 : ℝ) : EReal) * ⊥ = ⊥ := EReal.coe_mul_bot_of_pos (by norm_num)
      rw [e, if_neg (by simp), EReal.bot_mul_coe_of_pos (by norm_num)]
    | coe r =>
      have hr : r < 0 := by
        have : ((r : ℝ) : EReal) < 0 := not_le.mp h
        exact_mod_cast this
      have hneg : ¬ (0 : EReal) ≤ ((5033165 / 16777216 : ℝ) : EReal) * (r : EReal) := by
        rw [← EReal.coe_mul, not_le]
        exact_mod_cast (mul_neg_of_pos_of_neg (by norm_num : (0 : ℝ) < 5033165 / 16777216) hr)
      rw [if_neg hneg, ← EReal.coe_mul, ← EReal.coe_mul]
      congr 1
      field_simp
    | top => exact absurd le_top h

/-! ## The paired view and the block-diagonal matrix -/

/-- The 150000×64 array seen as 75000×128: entry (i, k) is entry (2i + k/64, k mod 64). -/
def paired (s : Nodes.Idx → EReal) : Pairs.Idx → EReal := fun i =>
  s (ix2 ⟨2 * (i 0).val + (i 1).val / 64, by have := idx2_lt0 i; have := idx2_lt1 i; omega⟩
      ⟨(i 1).val % 64, Nat.mod_lt _ (by norm_num)⟩)

/-- The 75000×128 array seen as 150000×64: entry (r, c) is entry (r/2, (r mod 2)·64 + c). -/
def unpaired (r : Pairs.Idx → EReal) : Nodes.Idx → EReal := fun j =>
  r (ix2 ⟨(j 0).val / 2, by have := idx2_lt0 j; omega⟩
      ⟨(j 0).val % 2 * 64 + (j 1).val, by have := idx2_lt1 j; omega⟩)

/-- [[w, 0], [0, w]]. -/
def blockdiag (w : Sq.Idx → EReal) : Sq2.Idx → EReal := fun i =>
  if (i 0).val / 64 = (i 1).val / 64 then
    w (ix2 ⟨(i 0).val % 64, Nat.mod_lt _ (by norm_num)⟩ ⟨(i 1).val % 64, Nat.mod_lt _ (by norm_num)⟩)
  else 0

theorem ix2_congr {n0 n1 : Nat} {a a' : Fin n0} {b b' : Fin n1} (ha : a.val = a'.val) (hb : b.val = b'.val) :
    ix2 a b = ix2 a' b' := by
  rw [Fin.ext ha, Fin.ext hb]

theorem unpaired_paired (s : Nodes.Idx → EReal) : unpaired (paired s) = s := by
  funext j
  obtain ⟨p, q, rfl⟩ : ∃ (p : Fin 150000) (q : Fin 64), j = ix2 p q := ⟨j 0, j 1, eq_ix2 j⟩
  show s (ix2 _ _) = s (ix2 p q)
  refine congrArg s (ix2_congr ?_ ?_)
  · show 2 * (p.val / 2) + (p.val % 2 * 64 + q.val) / 64 = p.val
    have := q.isLt; omega
  · show (p.val % 2 * 64 + q.val) % 64 = q.val
    have := q.isLt; omega

/-- The contraction over 128 coordinates, in two halves of 64. -/
theorem sum_halves (f : Fin 128 → EReal) :
    ∑ k, f k = ∑ k : Fin 64, f ⟨k.val, by omega⟩ + ∑ k : Fin 64, f ⟨64 + k.val, by omega⟩ :=
  Fin.sum_univ_add (a := 64) (b := 64) f

/-- Row i of the paired view times the block-diagonal matrix, at column j: row 2i + j/64 of the array times
    column j mod 64 of w. -/
theorem paired_blockdiag (s : Nodes.Idx → EReal) (w : Sq.Idx → EReal) (i : Fin 75000) (j : Fin 128) :
    ∑ k : Fin 128, paired s (ix2 i k) * blockdiag w (ix2 k j)
      = ∑ k : Fin 64, s (ix2 ⟨2 * i.val + j.val / 64, by have := j.isLt; omega⟩ k)
          * w (ix2 k ⟨j.val % 64, Nat.mod_lt _ (by norm_num)⟩) := by
  rw [sum_halves]
  have hj := j.isLt
  rcases Nat.lt_or_ge j.val 64 with h | h
  · have z : ∑ k : Fin 64, paired s (ix2 i ⟨64 + k.val, by omega⟩) * blockdiag w (ix2 ⟨64 + k.val, by omega⟩ j) = 0 := by
      refine Finset.sum_eq_zero fun k _ => ?_
      have : blockdiag w (ix2 (⟨64 + k.val, by omega⟩ : Fin 128) j) = 0 := by
        show (if (64 + k.val) / 64 = j.val / 64 then _ else (0 : EReal)) = 0
        rw [if_neg (by have := k.isLt; omega)]
      rw [this, mul_zero]
    rw [z, add_zero]
    refine Finset.sum_congr rfl fun k _ => ?_
    have hk := k.isLt
    have eb : blockdiag w (ix2 (⟨k.val, by omega⟩ : Fin 128) j) = w (ix2 k ⟨j.val % 64, Nat.mod_lt _ (by norm_num)⟩) := by
      show (if k.val / 64 = j.val / 64 then w (ix2 _ _) else (0 : EReal)) = _
      rw [if_pos (by omega)]
      exact congrArg w (ix2_congr (by show k.val % 64 = k.val; omega) rfl)
    have ea : paired s (ix2 i (⟨k.val, by omega⟩ : Fin 128)) = s (ix2 ⟨2 * i.val + j.val / 64, by omega⟩ k) := by
      show s (ix2 _ _) = _
      exact congrArg s (ix2_congr (by show 2 * i.val + k.val / 64 = 2 * i.val + j.val / 64; omega) (by show k.val % 64 = k.val; omega))
    rw [ea, eb]
  · have z : ∑ k : Fin 64, paired s (ix2 i ⟨k.val, by omega⟩) * blockdiag w (ix2 ⟨k.val, by omega⟩ j) = 0 := by
      refine Finset.sum_eq_zero fun k _ => ?_
      have : blockdiag w (ix2 (⟨k.val, by omega⟩ : Fin 128) j) = 0 := by
        show (if k.val / 64 = j.val / 64 then _ else (0 : EReal)) = 0
        rw [if_neg (by have := k.isLt; omega)]
      rw [this, mul_zero]
    rw [z, zero_add]
    refine Finset.sum_congr rfl fun k _ => ?_
    have hk := k.isLt
    have eb : blockdiag w (ix2 (⟨64 + k.val, by omega⟩ : Fin 128) j) = w (ix2 k ⟨j.val % 64, Nat.mod_lt _ (by norm_num)⟩) := by
      show (if (64 + k.val) / 64 = j.val / 64 then w (ix2 _ _) else (0 : EReal)) = _
      rw [if_pos (by omega)]
      exact congrArg w (ix2_congr (by show (64 + k.val) % 64 = k.val; omega) rfl)
    have ea : paired s (ix2 i (⟨64 + k.val, by omega⟩ : Fin 128)) = s (ix2 ⟨2 * i.val + j.val / 64, by omega⟩ k) := by
      show s (ix2 _ _) = _
      exact congrArg s (ix2_congr (by show 2 * i.val + (64 + k.val) / 64 = 2 * i.val + j.val / 64; omega) (by show (64 + k.val) % 64 = k.val; omega))
    rw [ea, eb]

/-! ## The two layers: the paired computation against the plain one -/

/-- A 150000×64 array times a 64×64 matrix. -/
def mm (s : Nodes.Idx → EReal) (w : Sq.Idx → EReal) : Nodes.Idx → EReal := fun j =>
  ∑ k : Fin 64, s (ix2 (j 0) k) * w (ix2 k (j 1))

/-- The first layer on paired rows: the slope function of a 75000×128 array times a 128×128 matrix. -/
def layer (a : Pairs.Idx → EReal) (b : Sq2.Idx → EReal) : Pairs.Idx → EReal := fun i =>
  leaky (∑ k : Fin 128, a (ix2 (i 0) k) * b (ix2 k (i 1)))

/-- The second layer on paired rows: the mean of the four stages, the first-layer product recovered from its
    slope-function image. -/
def combine (s1 : Pairs.Idx → EReal) (b : Sq2.Idx → EReal) (e0 e2 : Pairs.Idx → EReal) : Pairs.Idx → EReal := fun i =>
  (((e0 i + unleaky (e2 i)) + e2 i) + ∑ k : Fin 128, s1 (ix2 (i 0) k) * b (ix2 k (i 1))) * Ideal.ofBits .f32 0x3E800000#32

/-- The paired product read back at row p, column q is the plain product there. -/
theorem paired_blockdiag_at (s : Nodes.Idx → EReal) (w : Sq.Idx → EReal) (p : Fin 150000) (q : Fin 64) :
    ∑ k : Fin 128, paired s (ix2 (⟨p.val / 2, by omega⟩ : Fin 75000) k)
        * blockdiag w (ix2 k (⟨p.val % 2 * 64 + q.val, by omega⟩ : Fin 128))
      = mm s w (ix2 p q) := by
  rw [paired_blockdiag]
  refine Finset.sum_congr rfl fun k _ => ?_
  have hq := q.isLt
  have e1 : (ix2 (⟨2 * (p.val / 2) + (p.val % 2 * 64 + q.val) / 64, by omega⟩ : Fin 150000) k) = ix2 p k :=
    ix2_congr (by show 2 * (p.val / 2) + (p.val % 2 * 64 + q.val) / 64 = p.val; omega) rfl
  have e2 : (ix2 k (⟨(p.val % 2 * 64 + q.val) % 64, Nat.mod_lt _ (by norm_num)⟩ : Fin 64)) = ix2 k q :=
    ix2_congr rfl (by show (p.val % 2 * 64 + q.val) % 64 = q.val; omega)
  show s (ix2 _ k) * w (ix2 k _) = s (ix2 p k) * w (ix2 k q)
  rw [e1, e2]

/-- The first layer computed on paired rows against a block-diagonal matrix, read back unpaired, is the slope
    function of the plain product. -/
theorem unpaired_layer (s : Nodes.Idx → EReal) (w : Sq.Idx → EReal) :
    unpaired (layer (paired s) (blockdiag w)) = fun j => leaky (mm s w j) := by
  funext j
  obtain ⟨p, q, rfl⟩ : ∃ (p : Fin 150000) (q : Fin 64), j = ix2 p q := ⟨j 0, j 1, eq_ix2 j⟩
  show leaky (∑ k : Fin 128, paired s (ix2 (⟨p.val / 2, _⟩ : Fin 75000) k)
      * blockdiag w (ix2 k (⟨p.val % 2 * 64 + q.val, _⟩ : Fin 128))) = _
  rw [paired_blockdiag_at]

/-- The second layer computed on paired rows, read back unpaired. -/
theorem unpaired_combine (s1 : Nodes.Idx → EReal) (w1 : Sq.Idx → EReal) (e0 : Nodes.Idx → EReal) (R : Pairs.Idx → EReal)
    (j : Nodes.Idx) :
    unpaired (combine (paired s1) (blockdiag w1) (paired e0) R) j
      = (((e0 j + unleaky (unpaired R j)) + unpaired R j) + mm s1 w1 j) * Ideal.ofBits .f32 0x3E800000#32 := by
  obtain ⟨p, q, rfl⟩ : ∃ (p : Fin 150000) (q : Fin 64), j = ix2 p q := ⟨j 0, j 1, eq_ix2 j⟩
  have he : unpaired (paired e0) (ix2 p q) = e0 (ix2 p q) := congrFun (unpaired_paired e0) (ix2 p q)
  show (((unpaired (paired e0) (ix2 p q) + unleaky (unpaired R (ix2 p q))) + unpaired R (ix2 p q))
      + ∑ k : Fin 128, paired s1 (ix2 (⟨p.val / 2, _⟩ : Fin 75000) k)
          * blockdiag w1 (ix2 k (⟨p.val % 2 * 64 + q.val, _⟩ : Fin 128))) * _ = _
  rw [paired_blockdiag_at, he]

/-- THE BRIDGE. For any map f of 150000×64 arrays (the sparse product with the adjacency), the computation on
    paired rows — first layer, f of its unpaired result, second layer with the first product recovered by undoing
    the slope function — read back unpaired is the mean of the four stages e0, e1 = f(e0)·w0, e2 = slope(e1),
    e3 = f(e2)·w1. -/
theorem paired_eq_plain (f : (Nodes.Idx → EReal) → Nodes.Idx → EReal) (e0 : Nodes.Idx → EReal) (w0 w1 : Sq.Idx → EReal) :
    unpaired (combine (paired (f (unpaired (layer (paired (f e0)) (blockdiag w0))))) (blockdiag w1) (paired e0)
        (layer (paired (f e0)) (blockdiag w0)))
      = fun j => (((e0 j + mm (f e0) w0 j) + leaky (mm (f e0) w0 j))
          + mm (f (fun j => leaky (mm (f e0) w0 j))) w1 j) * Ideal.ofBits .f32 0x3E800000#32 := by
  funext j
  rw [unpaired_combine, unpaired_layer, unleaky_leaky]

end Cert.GraphConv

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.Blocks.lean ====
/-
  What each of the two grid computations leaves in its output array, as ONE function of the arrays it finds on
  entry. Both grids have 15 points; point t works on rows 5000·t … 5000·t + 4999 of the 75000×128 arrays and on
  the whole 128×128 matrix. Each entry of a block depends on one row of the row-blocked operands and one column
  of the matrix, so the blocks are restrictions of one whole-array function, and the fifteen blocks tile the
  output array.
-/
import proofs.«176272_j79242146611300_2_alg».proof.Proof.Gen.KernelIdeal.Frame
import proofs.«176272_j79242146611300_2_alg».proof.Proof.Spec
import proofs.«176272_j79242146611300_2_alg».proof.Proof.LibPlainDot
import Idealize.ShloMosaic.Lib.Pipeline.Value
import Idealize.ShloMosaic.Lib.ValueIdx
import Idealize.ShloMosaic.PureOps.IdealRules

set_option maxRecDepth 16384

noncomputable section

open scoped BigOperators

namespace Cert.KernelIdeal.Blocks

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed contraction record is the plain M×K by K×N one. -/
theorem dot_plain : dot_S5000x128_S128x128_S5000x128_1_0_0_1_n_n = DotDims.plain 5000 128 128 := rfl

/-! ## The first grid -/

/-- One entry of the first body's result: the slope function of a row of the first operand times a column of
    the second. -/
theorem pay0_at (x0 : Vec Ideal S5000x128 .f32) (x1 : Vec Ideal S128x128 .f32) (p : Fin 5000) (q : Fin 128) :
    k0_pay1 x0 x1 (ix2 p q) = leaky (∑ k : Fin 128, x0 (ix2 p k) * x1 (ix2 k q)) := by
  unfold k0_pay1
  simp only [shapeCast_self, dot_plain]
  exact congrArg leaky (PlainDot.matmul_zero_apply 5000 128 128 none _ _ p q)

/-- The printed index maps, decided over the grid: point t takes row block t of the row-blocked windows and the
    whole matrix. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of the first layer of the arrays the grid finds. -/
theorem flushed0 (c : Dev nD) (t : Fin cfg0.N) :
    (dat0 V c).flushed 2 t = ((cfg0.win 2).blk t).view.read (Elt Ideal)
      (layer (V c main_v14 : S75000x128.Idx → EReal) (V c main_v20 : S128x128.Idx → EReal)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e00, e01, e10, e11, e20, e21⟩ := idx0 t
  funext y
  obtain ⟨p, q, rfl⟩ : ∃ (p : Fin 5000) (q : Fin 128), y = ix2 p q := ⟨y 0, y 1, eq_ix2 y⟩
  refine (pay0_at (iblk0 V c 0 t) (iblk0 V c 1 t) p q).trans ?_
  show leaky _ = leaky _
  refine congrArg leaky (Finset.sum_congr rfl fun k _ => ?_)
  have h0 : iblk0 V c 0 t (ix2 p k)
      = (V c main_v14 : S75000x128.Idx → EReal) (ix2 ((((cfg0.win 2).blk t).view.emb (ix2 p q)) 0) k) := by
    show (V c main_v14 : S75000x128.Idx → EReal) (((cfg0.win 0).blk t).view.emb (ix2 p k)) = _
    refine congrArg (V c main_v14 : S75000x128.Idx → EReal) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : iblk0 V c 1 t (ix2 k q)
      = (V c main_v20 : S128x128.Idx → EReal) (ix2 k ((((cfg0.win 2).blk t).view.emb (ix2 p q)) 1)) := by
    show (V c main_v20 : S128x128.Idx → EReal) (((cfg0.win 1).blk t).view.emb (ix2 k q)) = _
    refine congrArg (V c main_v20 : S128x128.Idx → EReal) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [h0, h1]

/-- An index of the output array is in point t's block iff each coordinate is in the block's range. -/
theorem mem_blk0 (t : Fin cfg0.N) (i : S75000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v26).slice (win0_2.rect t)).set ↔ _
  rw [View.set_slice_whole, Rect.mem_set_unit]
  exact Iff.rfl

/-- Row r of the output array is in the block of point r / 5000. -/
theorem cover0 (i : S75000x128.Idx) :
    ∃ t : Fin cfg0.N, (cfg0.win 2).flush t = true ∧ i ∈ ((cfg0.win 2).blk t).view.set := by
  have hi0 : (i 0).val < 75000 := (i 0).isLt
  have hi1 : (i 1).val < 128 := (i 1).isLt
  have hN : (i 0).val / 5000 < cfg0.N := by show (i 0).val / 5000 < 15; omega
  refine ⟨⟨(i 0).val / 5000, hN⟩, flush0_2 _, ?_⟩
  obtain ⟨e00, e01, e10, e11, e20, e21⟩ := idx0 ⟨(i 0).val / 5000, hN⟩
  rw [mem_blk0]
  intro a
  match a with
  | ⟨0, _⟩ =>
    show win0_2.index ⟨(i 0).val / 5000, hN⟩ (0 : Fin 2) * 5000 ≤ (i 0).val
      ∧ (i 0).val < win0_2.index ⟨(i 0).val / 5000, hN⟩ (0 : Fin 2) * 5000 + 5000
    rw [e20]; show (i 0).val / 5000 * 5000 ≤ (i 0).val ∧ (i 0).val < (i 0).val / 5000 * 5000 + 5000; omega
  | ⟨1, _⟩ =>
    show win0_2.index ⟨(i 0).val / 5000, hN⟩ (1 : Fin 2) * 128 ≤ (i 1).val
      ∧ (i 1).val < win0_2.index ⟨(i 0).val / 5000, hN⟩ (1 : Fin 2) * 128 + 128
    rw [e21]; omega

/-- THE FIRST GRID'S OUTPUT ARRAY: the first layer of the arrays it finds. -/
theorem final0 (c : Dev nD) :
    (dat0 V c).arrAt 2 cfg0.N = layer (V c main_v14 : S75000x128.Idx → EReal) (V c main_v20 : S128x128.Idx → EReal) :=
  (dat0 V c).arrAt_eq_of_cover 2 _ (fun t _ => flushed0 V c t) cover0

/-! ## The second grid -/

/-- The named reciprocal of the slope is the rational the certificate's table gives it. -/
theorem inv_slope : Named.named (F := Ideal) κ "inv_leaky_alpha" (φ := .f32) 0x40555555#32 = ((16777216 / 5033165 : ℝ) : EReal) :=
  IdealRules.named_const.ideal_named_scalar _ _ _ _ rfl

/-- One entry of the second body's result: the stage-0 entry, plus the first product recovered from the
    stage-2 entry, plus the stage-2 entry, plus a row of the first operand times a column of the matrix; times
    a quarter. -/
theorem pay1_at (x0 : Vec Ideal S5000x128 .f32) (x1 : Vec Ideal S128x128 .f32) (x3 x2 : Vec Ideal S5000x128 .f32)
    (p : Fin 5000) (q : Fin 128) :
    k1_pay1 x0 x1 x3 x2 (ix2 p q)
      = (((x2 (ix2 p q) + unleaky (x3 (ix2 p q))) + x3 (ix2 p q)) + ∑ k : Fin 128, x0 (ix2 p k) * x1 (ix2 k q))
          * Ideal.ofBits .f32 0x3E800000#32 := by
  unfold k1_pay1
  simp only [shapeCast_self, dot_plain]
  have hm := PlainDot.matmul_zero_apply 5000 128 128 none (truncf .bf16 x0 bitsLt_bf16_f32) (truncf .bf16 x1 bitsLt_bf16_f32) p q
  show (((x2 (ix2 p q) + Scalar.select (Ideal.cmp .oge (x3 (ix2 p q)) (Ideal.ofBits .f32 0x00000000#32)) (x3 (ix2 p q))
        (x3 (ix2 p q) * Named.named (F := Ideal) κ "inv_leaky_alpha" (φ := .f32) 0x40555555#32)) + x3 (ix2 p q))
      + FloatOps.matmul (F := Ideal) (DotDims.plain 5000 128 128) none (truncf .bf16 x0 bitsLt_bf16_f32) (truncf .bf16 x1 bitsLt_bf16_f32)
          (constant (F := Ideal) ⟨2, ![5000, 128]⟩ .f32 0x00000000#32) (ix2 p q)) * Ideal.ofBits .f32 0x3E800000#32 = _
  rw [hm, inv_slope]
  rfl

/-- The printed index maps of the second grid, decided over the grid. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- WHAT POINT t WRITES BACK is block t of the second layer of the arrays the grid finds. -/
theorem flushed1 (c : Dev nD) (t : Fin cfg1.N) :
    (dat1 V c).flushed 4 t = ((cfg1.win 4).blk t).view.read (Elt Ideal)
      (combine (V c main_v41 : S75000x128.Idx → EReal) (V c main_v25 : S128x128.Idx → EReal)
        (V c main_v15 : S75000x128.Idx → EReal) (V c main_v26 : S75000x128.Idx → EReal)) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz]
  obtain ⟨e00, e01, e10, e11, e20, e21, e30, e31, e40, e41⟩ := idx1 t
  funext y
  obtain ⟨p, q, rfl⟩ : ∃ (p : Fin 5000) (q : Fin 128), y = ix2 p q := ⟨y 0, y 1, eq_ix2 y⟩
  refine (pay1_at (iblk1 V c 0 t) (iblk1 V c 1 t) (iblk1 V c 3 t) (iblk1 V c 2 t) p q).trans ?_
  have h2 : iblk1 V c 2 t (ix2 p q)
      = (V c main_v15 : S75000x128.Idx → EReal) (((cfg1.win 4).blk t).view.emb (ix2 p q)) := by
    show (V c main_v15 : S75000x128.Idx → EReal) (((cfg1.win 2).blk t).view.emb (ix2 p q)) = _
    refine congrArg (V c main_v15 : S75000x128.Idx → EReal) (funext fun a => Fin.ext ?_)
    match a with
    | ⟨0, _⟩ => show win1_2.index t (0 : Fin 2) * 5000 + 1 * p.val = win1_4.index t (0 : Fin 2) * 5000 + 1 * p.val; omega
    | ⟨1, _⟩ => show win1_2.index t (1 : Fin 2) * 128 + 1 * q.val = win1_4.index t (1 : Fin 2) * 128 + 1 * q.val; omega
  have h3 : iblk1 V c 3 t (ix2 p q)
      = (V c main_v26 : S75000x128.Idx → EReal) (((cfg1.win 4).blk t).view.emb (ix2 p q)) := by
    show (V c main_v26 : S75000x128.Idx → EReal) (((cfg1.win 3).blk t).view.emb (ix2 p q)) = _
    refine congrArg (V c main_v26 : S75000x128.Idx → EReal) (funext fun a => Fin.ext ?_)
    match a with
    | ⟨0, _⟩ => show win1_3.index t (0 : Fin 2) * 5000 + 1 * p.val = win1_4.index t (0 : Fin 2) * 5000 + 1 * p.val; omega
    | ⟨1, _⟩ => show win1_3.index t (1 : Fin 2) * 128 + 1 * q.val = win1_4.index t (1 : Fin 2) * 128 + 1 * q.val; omega
  have key : ∀ (a a' b b' : EReal) (f g : Fin 128 → EReal), a = a' → b = b' → (∀ k, f k = g k) →
      (((a + unleaky b) + b) + ∑ k, f k) * Ideal.ofBits .f32 0x3E800000#32
        = (((a' + unleaky b') + b') + ∑ k, g k) * Ideal.ofBits .f32 0x3E800000#32 := by
    intro a a' b b' f g ha hb hfg; rw [ha, hb, funext hfg]
  show _ = combine (V c main_v41 : S75000x128.Idx → EReal) (V c main_v25 : S128x128.Idx → EReal)
    (V c main_v15 : S75000x128.Idx → EReal) (V c main_v26 : S75000x128.Idx → EReal) (((cfg1.win 4).blk t).view.emb (ix2 p q))
  unfold combine
  refine key _ _ _ _ _ _ h2 h3 (fun k => ?_)
  have h0 : iblk1 V c 0 t (ix2 p k)
      = (V c main_v41 : S75000x128.Idx → EReal) (ix2 ((((cfg1.win 4).blk t).view.emb (ix2 p q)) 0) k) := by
    show (V c main_v41 : S75000x128.Idx → EReal) (((cfg1.win 0).blk t).view.emb (ix2 p k)) = _
    refine congrArg (V c main_v41 : S75000x128.Idx → EReal) (funext fun a => Fin.ext ?_)
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * k.val = k.val; omega
  have h1 : iblk1 V c 1 t (ix2 k q)
      = (V c main_v25 : S128x128.Idx → EReal) (ix2 k ((((cfg1.win 4).blk t).view.emb (ix2 p q)) 1)) := by
    show (V c main_v25 : S128x128.Idx → EReal) (((cfg1.win 1).blk t).view.emb (ix2 k q)) = _
    refine congrArg (V c main_v25 : S128x128.Idx → EReal) (funext fun a => Fin.ext ?_)
    match a with
    | ⟨0, _⟩ => show win1_1.index t (0 : Fin 2) * 128 + 1 * k.val = k.val; omega
    | ⟨1, _⟩ => show win1_1.index t (1 : Fin 2) * 128 + 1 * q.val = win1_4.index t (1 : Fin 2) * 128 + 1 * q.val; omega
  rw [h0, h1]

/-- An index of the output array is in point t's block iff each coordinate is in the block's range. -/
theorem mem_blk1 (t : Fin cfg1.N) (i : S75000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v42).slice (win1_4.rect t)).set ↔ _
  rw [View.set_slice_whole, Rect.mem_set_unit]
  exact Iff.rfl

/-- Row r of the output array is in the block of point r / 5000. -/
theorem cover1 (i : S75000x128.Idx) :
    ∃ t : Fin cfg1.N, (cfg1.win 4).flush t = true ∧ i ∈ ((cfg1.win 4).blk t).view.set := by
  have hi0 : (i 0).val < 75000 := (i 0).isLt
  have hi1 : (i 1).val < 128 := (i 1).isLt
  have hN : (i 0).val / 5000 < cfg1.N := by show (i 0).val / 5000 < 15; omega
  refine ⟨⟨(i 0).val / 5000, hN⟩, flush1_4 _, ?_⟩
  obtain ⟨e00, e01, e10, e11, e20, e21, e30, e31, e40, e41⟩ := idx1 ⟨(i 0).val / 5000, hN⟩
  rw [mem_blk1]
  intro a
  match a with
  | ⟨0, _⟩ =>
    show win1_4.index ⟨(i 0).val / 5000, hN⟩ (0 : Fin 2) * 5000 ≤ (i 0).val
      ∧ (i 0).val < win1_4.index ⟨(i 0).val / 5000, hN⟩ (0 : Fin 2) * 5000 + 5000
    rw [e40]; show (i 0).val / 5000 * 5000 ≤ (i 0).val ∧ (i 0).val < (i 0).val / 5000 * 5000 + 5000; omega
  | ⟨1, _⟩ =>
    show win1_4.index ⟨(i 0).val / 5000, hN⟩ (1 : Fin 2) * 128 ≤ (i 1).val
      ∧ (i 1).val < win1_4.index ⟨(i 0).val / 5000, hN⟩ (1 : Fin 2) * 128 + 128
    rw [e41]; omega

/-- THE SECOND GRID'S OUTPUT ARRAY: the second layer of the arrays it finds. -/
theorem final1 (c : Dev nD) :
    (dat1 V c).arrAt 4 cfg1.N = combine (V c main_v41 : S75000x128.Idx → EReal) (V c main_v25 : S128x128.Idx → EReal)
      (V c main_v15 : S75000x128.Idx → EReal) (V c main_v26 : S75000x128.Idx → EReal) :=
  (dat1 V c).arrAt_eq_of_cover 4 _ (fun t _ => flushed1 V c t) cover1

end Cert.KernelIdeal.Blocks

end
-- ==== Proof.Shared.lean ====
/-
  The pieces the two programs share word for word: the stacked node features (users over items), the sparse
  product with the adjacency (gather the source rows, scale by the edge weights, scatter-add into the
  destination rows — negative column indices wrapped by the node count first), the transposed weights.
  They are named here so that neither side's proof opens them: the two programs apply the same functions.
-/
import proofs.«176272_j79242146611300_2_alg».proof.Proof.Gen.ReferenceIdeal

noncomputable section

namespace Cert.ReferenceIdeal.Shared

open Cert.ReferenceIdeal Cert.ReferenceIdeal.Gen Idealize.ShloMosaic

variable {F : FTy → Type} [FloatOps F]

/-- The user rows over the item rows. -/
def stack (x0 : (⟨S100000x64, .f32⟩ : BufTy).Contents (Elt F)) (x1 : (⟨S50000x64, .f32⟩ : BufTy).Contents (Elt F)) :
    (⟨S150000x64, .f32⟩ : BufTy).Contents (Elt F) :=
  concatenate S150000x64 0 [⟨S100000x64, x0⟩, ⟨S50000x64, x1⟩] concatenates_S100000x64_S50000x64_S150000x64_d0

/-- The adjacency, given by edge weights, destination rows and source rows, times a 150000×64 array. -/
def spmm (x4 : (⟨S2400000, .f32⟩ : BufTy).Contents (Elt F)) (x5 x6 : (⟨S2400000, .i32⟩ : BufTy).Contents (Elt F))
    (e : (⟨S150000x64, .f32⟩ : BufTy).Contents (Elt F)) : (⟨S150000x64, .f32⟩ : BufTy).Contents (Elt F) :=
  Host.scatterAdd scatter_S150000x64_S2400000x1_S2400000x64_1_0_0_1
    (broadcastInDim S150000x64 ![] bcast_S_S150000x64 (constant (F := F) S_ .f32 0x00000000#32))
    (broadcastInDim S2400000x1 ![0] bcast_S2400000_S2400000x1_0 x5)
    (mulf (broadcastInDim S2400000x64 ![0, 1] bcast_S2400000x1_S2400000x64_0_1 (broadcastInDim S2400000x1 ![0] bcast_S2400000_S2400000x1_0 x4))
      (Host.gather gather_S150000x64_S2400000x1_S2400000x64_1_0_n_n_0_1_164 e
        (broadcastInDim S2400000x1 ![0] bcast_S2400000_S2400000x1_0
          (select (cmpi .slt x6 (broadcastInDim S2400000 ![] bcast_S_S2400000 (constantI S_ 32 0#32)))
            (addi x6 (broadcastInDim S2400000 ![] bcast_S_S2400000 (constantI S_ 32 150000#32))) x6))))

/-- A 64×64 matrix transposed. -/
def tr (w : (⟨S64x64, .f32⟩ : BufTy).Contents (Elt F)) : (⟨S64x64, .f32⟩ : BufTy).Contents (Elt F) :=
  transpose S64x64 [1, 0] w transposes_S64x64_S64x64_1_0

end Cert.ReferenceIdeal.Shared

end
-- ==== Proof.Host.lean ====
/-
  The three stretches of host operations of the kernel's program, each read over an arbitrary contents X of the
  buffers it starts from: before the first grid (the stacked features and their paired view, the paired view of
  the sparse product, the two block-diagonal weight matrices), between the grids (the paired view of the sparse
  product of the unpaired first-layer result), after the second grid (the unpaired result cut into its user
  rows and item rows).
-/
import proofs.«176272_j79242146611300_2_alg».proof.Proof.Gen.KernelIdeal.Launch
import proofs.«176272_j79242146611300_2_alg».proof.Proof.Shared
import Idealize.ShloMosaic.Lib.StableHlo.Run

set_option maxRecDepth 16384

noncomputable section

namespace Cert.KernelIdeal.Host

open Cert.KernelIdeal Cert.KernelIdeal.Gen Cert.ReferenceIdeal.Shared
open Idealize.ShloMosaic Idealize.ShloMosaic.TcCoe Idealize.SL.Sem Idealize.ShloMosaic.StableHlo

variable (X : Valuation τ sig (Elt Ideal))

/-- [[wᵀ, 0], [0, wᵀ]] as the program builds it. -/
def blockOf (w : (⟨S64x64, .f32⟩ : BufTy).Contents (Elt Ideal)) : (⟨S128x128, .f32⟩ : BufTy).Contents (Elt Ideal) :=
  concatenate S128x128 0
    [⟨S64x128, concatenate S64x128 1 [⟨S64x64, tr w⟩, ⟨S64x64, broadcastInDim S64x64 ![] bcast_S_S64x64 (constant (F := Ideal) S_ .f32 0x00000000#32)⟩] concatenates_S64x64_S64x64_S64x128_d1⟩,
     ⟨S64x128, concatenate S64x128 1 [⟨S64x64, broadcastInDim S64x64 ![] bcast_S_S64x64 (constant (F := Ideal) S_ .f32 0x00000000#32)⟩, ⟨S64x64, tr w⟩] concatenates_S64x64_S64x64_S64x128_d1⟩]
    concatenates_S64x128_S64x128_S128x128_d0

/-! ## After the last grid -/

theorem tail_v44 : after (hostOps2 (F := Ideal)) X (Proc.devRef .tc main_v44)
    = extractStridedSlice S100000x64 ![0, 0] (shapeCast S150000x64 (X (Proc.devRef .tc main_v42)) shapeCasts_S75000x128_S150000x64) slices_S150000x64_S100000x64_0_0 := by
  after_results; rfl

theorem tail_v45 : after (hostOps2 (F := Ideal)) X (Proc.devRef .tc main_v45)
    = extractStridedSlice S50000x64 ![100000, 0] (shapeCast S150000x64 (X (Proc.devRef .tc main_v42)) shapeCasts_S75000x128_S150000x64) slices_S150000x64_S50000x64_100000_0 := by
  after_results; rfl

/-! ## Between the grids -/

theorem mid_v41 : after (hostOps1 (F := Ideal)) X (Proc.devRef .tc main_v41)
    = shapeCast S75000x128 (spmm (X (Proc.devRef .tc main_arg4)) (X (Proc.devRef .tc main_arg5)) (X (Proc.devRef .tc main_arg6))
        (shapeCast S150000x64 (X (Proc.devRef .tc main_v26)) shapeCasts_S75000x128_S150000x64)) shapeCasts_S150000x64_S75000x128 := by
  after_results_simp <;> rfl

theorem mid_v25 : after (hostOps1 (F := Ideal)) X (Proc.devRef .tc main_v25) = X (Proc.devRef .tc main_v25) := by
  after_results_simp <;> rfl
theorem mid_v15 : after (hostOps1 (F := Ideal)) X (Proc.devRef .tc main_v15) = X (Proc.devRef .tc main_v15) := by
  after_results_simp <;> rfl
theorem mid_v26 : after (hostOps1 (F := Ideal)) X (Proc.devRef .tc main_v26) = X (Proc.devRef .tc main_v26) := by
  after_results_simp <;> rfl

/-! ## Before the first grid -/

theorem head_v14 : after (hostOps0 (F := Ideal)) X (Proc.devRef .tc main_v14)
    = shapeCast S75000x128 (spmm (X (Proc.devRef .tc main_arg4)) (X (Proc.devRef .tc main_arg5)) (X (Proc.devRef .tc main_arg6))
        (stack (X (Proc.devRef .tc main_arg0)) (X (Proc.devRef .tc main_arg1)))) shapeCasts_S150000x64_S75000x128 := by
  after_results_simp <;> rfl

theorem head_v15 : after (hostOps0 (F := Ideal)) X (Proc.devRef .tc main_v15)
    = shapeCast S75000x128 (stack (X (Proc.devRef .tc main_arg0)) (X (Proc.devRef .tc main_arg1))) shapeCasts_S150000x64_S75000x128 := by
  after_results_simp <;> rfl

theorem head_v20 : after (hostOps0 (F := Ideal)) X (Proc.devRef .tc main_v20) = blockOf (X (Proc.devRef .tc main_arg2)) := by
  after_results_simp <;> rfl

theorem head_v25 : after (hostOps0 (F := Ideal)) X (Proc.devRef .tc main_v25) = blockOf (X (Proc.devRef .tc main_arg3)) := by
  after_results_simp <;> rfl

theorem head_arg4 : after (hostOps0 (F := Ideal)) X (Proc.devRef .tc main_arg4) = X (Proc.devRef .tc main_arg4) := by
  after_results_simp <;> rfl
theorem head_arg5 : after (hostOps0 (F := Ideal)) X (Proc.devRef .tc main_arg5) = X (Proc.devRef .tc main_arg5) := by
  after_results_simp <;> rfl
theorem head_arg6 : after (hostOps0 (F := Ideal)) X (Proc.devRef .tc main_arg6) = X (Proc.devRef .tc main_arg6) := by
  after_results_simp <;> rfl

end Cert.KernelIdeal.Host

end
-- ==== Proof.Layout.lean ====
/-
  The layout operations of the paired computation, read as the functions of the specification:
  a row-major reshape of a 150000×64 array to 75000×128 is the paired view, the reshape back is the unpaired
  view, and the two-by-two concatenation [[w, z], [z, w]] with z identically zero is the block-diagonal matrix.
-/
import proofs.«176272_j79242146611300_2_alg».proof.Proof.Spec
import Idealize.ShloMosaic.Lib.Pipeline.Value

noncomputable section

namespace Cert.GraphConv

open Idealize.ShloMosaic Idealize.ShloMosaic.ValueIdx

abbrev Half : Shape := ⟨2, ![64, 128]⟩

/-- Row-major, entry (i, k) of the 75000×128 view is at position 128·i + k = 64·(2i + k/64) + k mod 64. -/
theorem shapeCast_paired (s : Nodes.Idx → EReal) (h : Nodes.ShapeCasts Pairs) : shapeCast Pairs s h = paired s := by
  funext i
  refine shapeCast_apply s h i _ ?_
  rw [Shape.rowMajor_val_two, Shape.rowMajor_val_two]
  show (2 * (i 0).val + (i 1).val / 64) * 64 + (i 1).val % 64 = (i 0).val * 128 + (i 1).val
  omega

/-- Row-major, entry (r, c) of the 150000×64 view is at position 64·r + c = 128·(r/2) + (r mod 2)·64 + c. -/
theorem shapeCast_unpaired (r : Pairs.Idx → EReal) (h : Pairs.ShapeCasts Nodes) : shapeCast Nodes r h = unpaired r := by
  funext j
  refine shapeCast_apply r h j _ ?_
  rw [Shape.rowMajor_val_two, Shape.rowMajor_val_two]
  show (j 0).val / 2 * 128 + ((j 0).val % 2 * 64 + (j 1).val) = (j 0).val * 64 + (j 1).val
  have := idx2_lt1 j
  omega

/-- [[w, z], [z, w]] with z = 0 everywhere is the block-diagonal matrix of w. -/
theorem concatenate_blockdiag (w z : Sq.Idx → EReal) (hz : ∀ i, z i = 0)
    (h1 : Shape.Concatenates [Sq, Sq] Half 1) (h0 : Shape.Concatenates [Half, Half] Sq2 0) :
    concatenate Sq2 0 [⟨Half, concatenate Half 1 [⟨Sq, w⟩, ⟨Sq, z⟩] h1⟩, ⟨Half, concatenate Half 1 [⟨Sq, z⟩, ⟨Sq, w⟩] h1⟩] h0
      = blockdiag w := by
  funext i
  obtain ⟨a, b, rfl⟩ : ∃ (a : Fin 128) (b : Fin 128), i = ix2 a b := ⟨i 0, i 1, eq_ix2 i⟩
  have ha := a.isLt
  have hb := b.isLt
  show _ = (if a.val / 64 = b.val / 64 then w (ix2 ⟨a.val % 64, _⟩ ⟨b.val % 64, _⟩) else 0)
  rcases Nat.lt_or_ge a.val 64 with ha' | ha' <;> rcases Nat.lt_or_ge b.val 64 with hb' | hb'
  · -- the upper left block
    rw [concatenate_pair_apply_left (t := Sq2) (s₁ := Half) (s₂ := Half) (0 : Fin 2) _ _ h0 (ix2 a b) rfl (ix2 (⟨a.val, ha'⟩ : Fin 64) b)
      (fun d => match d with | ⟨0, _⟩ => rfl | ⟨1, _⟩ => rfl)]
    rw [concatenate_pair_apply_left (t := Half) (s₁ := Sq) (s₂ := Sq) (1 : Fin 2) _ _ h1 (ix2 (⟨a.val, ha'⟩ : Fin 64) b) rfl (ix2 (⟨a.val, ha'⟩ : Fin 64) (⟨b.val, hb'⟩ : Fin 64))
      (fun d => match d with | ⟨0, _⟩ => rfl | ⟨1, _⟩ => rfl)]
    rw [if_pos (by omega)]
    exact congrArg w (ix2_congr (by show a.val = a.val % 64; omega) (by show b.val = b.val % 64; omega))
  · -- the upper right block
    rw [concatenate_pair_apply_left (t := Sq2) (s₁ := Half) (s₂ := Half) (0 : Fin 2) _ _ h0 (ix2 a b) rfl (ix2 (⟨a.val, ha'⟩ : Fin 64) b)
      (fun d => match d with | ⟨0, _⟩ => rfl | ⟨1, _⟩ => rfl)]
    rw [concatenate_pair_apply_right (t := Half) (s₁ := Sq) (s₂ := Sq) (1 : Fin 2) _ _ h1 (ix2 (⟨a.val, ha'⟩ : Fin 64) b) rfl rfl
      (ix2 (⟨a.val, ha'⟩ : Fin 64) (⟨b.val - 64, by omega⟩ : Fin 64))
      (fun d => match d with | ⟨0, _⟩ => fun _ => rfl | ⟨1, _⟩ => fun hne => absurd rfl hne)
      (by show b.val - 64 + 64 = b.val; omega)]
    rw [if_neg (by omega), hz]
  · -- the lower left block
    rw [concatenate_pair_apply_right (t := Sq2) (s₁ := Half) (s₂ := Half) (0 : Fin 2) _ _ h0 (ix2 a b) rfl rfl
      (ix2 (⟨a.val - 64, by omega⟩ : Fin 64) b)
      (fun d => match d with | ⟨0, _⟩ => fun hne => absurd rfl hne | ⟨1, _⟩ => fun _ => rfl)
      (by show a.val - 64 + 64 = a.val; omega)]
    rw [concatenate_pair_apply_left (t := Half) (s₁ := Sq) (s₂ := Sq) (1 : Fin 2) _ _ h1 (ix2 (⟨a.val - 64, by omega⟩ : Fin 64) b) rfl
      (ix2 (⟨a.val - 64, by omega⟩ : Fin 64) (⟨b.val, hb'⟩ : Fin 64))
      (fun d => match d with | ⟨0, _⟩ => rfl | ⟨1, _⟩ => rfl)]
    rw [if_neg (by omega), hz]
  · -- the lower right block
    rw [concatenate_pair_apply_right (t := Sq2) (s₁ := Half) (s₂ := Half) (0 : Fin 2) _ _ h0 (ix2 a b) rfl rfl
      (ix2 (⟨a.val - 64, by omega⟩ : Fin 64) b)
      (fun d => match d with | ⟨0, _⟩ => fun hne => absurd rfl hne | ⟨1, _⟩ => fun _ => rfl)
      (by show a.val - 64 + 64 = a.val; omega)]
    rw [concatenate_pair_apply_right (t := Half) (s₁ := Sq) (s₂ := Sq) (1 : Fin 2) _ _ h1 (ix2 (⟨a.val - 64, by omega⟩ : Fin 64) b) rfl rfl
      (ix2 (⟨a.val - 64, by omega⟩ : Fin 64) (⟨b.val - 64, by omega⟩ : Fin 64))
      (fun d => match d with | ⟨0, _⟩ => fun _ => rfl | ⟨1, _⟩ => fun hne => absurd rfl hne)
      (by show b.val - 64 + 64 = b.val; omega)]
    rw [if_pos (by omega)]
    exact congrArg w (ix2_congr (by show a.val - 64 = a.val % 64; omega) (by show b.val - 64 = b.val % 64; omega))

end Cert.GraphConv

end
-- ==== Proof.KValue.lean ====
/-
  The kernel's two results as functions of the arguments. Walking the program's boundaries backwards: the
  results are the user rows and the item rows of the unpaired second-layer array; the second grid finds the
  paired sparse product of the unpaired first-layer array, the block-diagonal second weights, the paired stacked
  features and the first-layer array itself; the first grid finds the paired sparse product of the stacked
  features and the block-diagonal first weights. No host operation and no grid writes an argument.
-/
import proofs.«176272_j79242146611300_2_alg».proof.Proof.FrameResults
import proofs.«176272_j79242146611300_2_alg».proof.Proof.Blocks
import proofs.«176272_j79242146611300_2_alg».proof.Proof.Host
import proofs.«176272_j79242146611300_2_alg».proof.Proof.Layout

set_option maxRecDepth 16384

noncomputable section

namespace Cert.KernelIdeal.KValue

open Cert.KernelIdeal Cert.KernelIdeal.Gen Cert.KernelIdeal.Host Cert.KernelIdeal.Blocks
open Cert.ReferenceIdeal.Shared Cert.GraphConv
open Idealize.ShloMosaic Idealize.ShloMosaic.TcCoe Idealize.SL.Sem Idealize.ShloMosaic.StableHlo

variable (m : (ℓ : Loc nD τ sig) → Buf (Elt Ideal) ℓ) (ρ : Dev nD → PrngReg)

/-- The first-layer array on paired rows, of the arguments. -/
def firstLayer (c : Dev nD) : S75000x128.Idx → EReal :=
  layer (paired (spmm (m ((c : Thread nD τ).loc main_arg4)) (m ((c : Thread nD τ).loc main_arg5)) (m ((c : Thread nD τ).loc main_arg6))
      (stack (m ((c : Thread nD τ).loc main_arg0)) (m ((c : Thread nD τ).loc main_arg1)))))
    (blockdiag (tr (m ((c : Thread nD τ).loc main_arg2))))

/-- The mean of the four stages, of the arguments, as the kernel's program computes it. -/
def allStages (c : Dev nD) : S150000x64.Idx → EReal :=
  unpaired (combine
    (paired (spmm (m ((c : Thread nD τ).loc main_arg4)) (m ((c : Thread nD τ).loc main_arg5)) (m ((c : Thread nD τ).loc main_arg6))
      (unpaired (firstLayer m c))))
    (blockdiag (tr (m ((c : Thread nD τ).loc main_arg3))))
    (paired (stack (m ((c : Thread nD τ).loc main_arg0)) (m ((c : Thread nD τ).loc main_arg1))))
    (firstLayer m c))

/-- The splat of the zero word is 0 at every index. -/
theorem zeros_apply (i : S64x64.Idx) :
    broadcastInDim S64x64 ![] bcast_S_S64x64 (constant (F := Ideal) S_ .f32 0x00000000#32) i = 0 := by
  rw [broadcastInDim_apply _ bcast_S_S64x64 (constant (F := Ideal) S_ .f32 0x00000000#32) i (fun a => a.elim0) (fun a => a.elim0)]
  exact zero_word

/-- The matrix the program concatenates is the block-diagonal matrix of the transposed weights. -/
theorem blockOf_eq (w : (⟨S64x64, .f32⟩ : BufTy).Contents (Elt Ideal)) : blockOf w = blockdiag (tr w) := by
  unfold blockOf
  exact concatenate_blockdiag (tr w) _ zeros_apply _ _

/-! ## The arguments at the first grid's exit -/

theorem W2_arg4 (c : Dev nD) : W2 m ρ c (Proc.devRef .tc main_arg4) = m ((c : Thread nD τ).loc main_arg4) :=
  (W2_of_ne m ρ c main_arg4 (by decide)).trans (head_arg4 (W0 m ρ c))
theorem W2_arg5 (c : Dev nD) : W2 m ρ c (Proc.devRef .tc main_arg5) = m ((c : Thread nD τ).loc main_arg5) :=
  (W2_of_ne m ρ c main_arg5 (by decide)).trans (head_arg5 (W0 m ρ c))
theorem W2_arg6 (c : Dev nD) : W2 m ρ c (Proc.devRef .tc main_arg6) = m ((c : Thread nD τ).loc main_arg6) :=
  (W2_of_ne m ρ c main_arg6 (by decide)).trans (head_arg6 (W0 m ρ c))

/-! ## The first grid's output array -/

theorem first_eq (c : Dev nD) : W2 m ρ c (Proc.devRef .tc main_v26) = firstLayer m c := by
  refine (W2_arr m ρ c 2).trans ?_
  rw [final0 (V1 m ρ) c]
  have e14 : (V1 m ρ c main_v14 : S75000x128.Idx → EReal)
      = paired (spmm (m ((c : Thread nD τ).loc main_arg4)) (m ((c : Thread nD τ).loc main_arg5)) (m ((c : Thread nD τ).loc main_arg6))
          (stack (m ((c : Thread nD τ).loc main_arg0)) (m ((c : Thread nD τ).loc main_arg1)))) :=
    (head_v14 (W0 m ρ c)).trans (shapeCast_paired _ _)
  have e20 : (V1 m ρ c main_v20 : S128x128.Idx → EReal) = blockdiag (tr (m ((c : Thread nD τ).loc main_arg2))) :=
    (head_v20 (W0 m ρ c)).trans (blockOf_eq _)
  rw [e14, e20]
  rfl

/-! ## The second grid's output array -/

theorem second_eq (c : Dev nD) : W4 m ρ c (Proc.devRef .tc main_v42)
    = combine
        (paired (spmm (m ((c : Thread nD τ).loc main_arg4)) (m ((c : Thread nD τ).loc main_arg5)) (m ((c : Thread nD τ).loc main_arg6))
          (unpaired (firstLayer m c))))
        (blockdiag (tr (m ((c : Thread nD τ).loc main_arg3))))
        (paired (stack (m ((c : Thread nD τ).loc main_arg0)) (m ((c : Thread nD τ).loc main_arg1))))
        (firstLayer m c) := by
  refine (W4_arr m ρ c 4).trans ?_
  rw [final1 (V3 m ρ) c]
  have e41 : (V3 m ρ c main_v41 : S75000x128.Idx → EReal)
      = paired (spmm (m ((c : Thread nD τ).loc main_arg4)) (m ((c : Thread nD τ).loc main_arg5)) (m ((c : Thread nD τ).loc main_arg6))
          (unpaired (firstLayer m c))) := by
    refine (mid_v41 (W2 m ρ c)).trans ?_
    rw [W2_arg4, W2_arg5, W2_arg6, first_eq, shapeCast_unpaired, shapeCast_paired]
  have e25 : (V3 m ρ c main_v25 : S128x128.Idx → EReal) = blockdiag (tr (m ((c : Thread nD τ).loc main_arg3))) :=
    (mid_v25 (W2 m ρ c)).trans ((W2_of_ne m ρ c main_v25 (by decide)).trans ((head_v25 (W0 m ρ c)).trans (blockOf_eq _)))
  have e15 : (V3 m ρ c main_v15 : S75000x128.Idx → EReal)
      = paired (stack (m ((c : Thread nD τ).loc main_arg0)) (m ((c : Thread nD τ).loc main_arg1))) :=
    (mid_v15 (W2 m ρ c)).trans ((W2_of_ne m ρ c main_v15 (by decide)).trans ((head_v15 (W0 m ρ c)).trans (shapeCast_paired _ _)))
  have e26 : (V3 m ρ c main_v26 : S75000x128.Idx → EReal) = firstLayer m c :=
    (mid_v26 (W2 m ρ c)).trans (first_eq m ρ c)
  rw [e41, e25, e15, e26]

/-! ## The results -/

theorem result_users (c : Dev nD) : W5 m ρ c (Proc.devRef .tc main_v44)
    = extractStridedSlice S100000x64 ![0, 0] (allStages m c) slices_S150000x64_S100000x64_0_0 := by
  refine (tail_v44 (W4 m ρ c)).trans ?_
  rw [second_eq, shapeCast_unpaired]
  rfl

theorem result_items (c : Dev nD) : W5 m ρ c (Proc.devRef .tc main_v45)
    = extractStridedSlice S50000x64 ![100000, 0] (allStages m c) slices_S150000x64_S50000x64_100000_0 := by
  refine (tail_v45 (W4 m ρ c)).trans ?_
  rw [second_eq, shapeCast_unpaired]
  rfl

/-- THE RUN, READ: every weakly fair execution terminates with the two results at the user rows and the item
    rows of the mean of the four stages, the arguments unchanged. -/
theorem run : θ_run defs (onTc (τ := τ) (main (F := Ideal))) ⟨m, fun _ => 0, ρ⟩ (fun r => ∀ c : Dev nD,
      r.2.mem ((c.tc : Thread nD τ).loc main_v44)
        = extractStridedSlice S100000x64 ![0, 0] (allStages m c) slices_S150000x64_S100000x64_0_0
      ∧ r.2.mem ((c.tc : Thread nD τ).loc main_v45)
        = extractStridedSlice S50000x64 ![100000, 0] (allStages m c) slices_S150000x64_S50000x64_100000_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono
    (fun r h c => ⟨(h c).1.trans (result_users m ρ c), (h c).2.1.trans (result_items m ρ c), (h c).2.2⟩)
    (Cert.KernelIdeal.GenP.frame_results (F := Ideal) m ρ)

end Cert.KernelIdeal.KValue

end
-- ==== Proof.RefValue.lean ====
/-
  The reference's result before its final cut, as one function of the arguments: the mean of the four stages
  e0 (the stacked features), e1 = A·e0·W0ᵀ, e2 = the slope function of e1, e3 = A·e2·W1ᵀ, entry by entry —
  with A·(·) the shared sparse product and the transposes the shared ones, never opened.
-/
import proofs.«176272_j79242146611300_2_alg».proof.Proof.Gen.ReferenceIdeal.Read
import proofs.«176272_j79242146611300_2_alg».proof.Proof.Shared
import proofs.«176272_j79242146611300_2_alg».proof.Proof.Spec

noncomputable section

open scoped BigOperators

namespace Cert.ReferenceIdeal.RefValue

open Cert.ReferenceIdeal Cert.ReferenceIdeal.Read Cert.ReferenceIdeal.Shared Cert.GraphConv
open Idealize.ShloMosaic Idealize.ShloMosaic.ValueIdx

variable (x0 : (⟨S100000x64, .f32⟩ : BufTy).Contents (Elt Ideal)) (x1 : (⟨S50000x64, .f32⟩ : BufTy).Contents (Elt Ideal))
  (x2 x3 : (⟨S64x64, .f32⟩ : BufTy).Contents (Elt Ideal)) (x4 : (⟨S2400000, .f32⟩ : BufTy).Contents (Elt Ideal))
  (x5 x6 : (⟨S2400000, .i32⟩ : BufTy).Contents (Elt Ideal))

/-- The first product, entry by entry: a row of A·e0 times a column of W0ᵀ. -/
theorem v15_at (j : S150000x64.Idx) :
    val_main_v15 (F := Ideal) x0 x1 x2 x4 x5 x6 j = mm (spmm x4 x5 x6 (stack x0 x1)) (tr x2) j := by
  rw [val_main_v15_apply]
  refine Finset.sum_congr rfl fun k _ => ?_
  have el : lidx_main_v15 j k = ix2 (j 0) k := funext fun a => by match a with | ⟨0, _⟩ => rfl | ⟨1, _⟩ => rfl
  have er : ridx_main_v15 j k = ix2 k (j 1) := funext fun a => by match a with | ⟨0, _⟩ => rfl | ⟨1, _⟩ => rfl
  rw [el, er]
  rfl

/-- The second stage is the slope function of the first product. -/
theorem v20_at (j : S150000x64.Idx) :
    val_main_v20 (F := Ideal) x0 x1 x2 x4 x5 x6 j = leaky (mm (spmm x4 x5 x6 (stack x0 x1)) (tr x2) j) := by
  rw [val_main_v20_apply, val_main_v17_apply, val_main_v19_apply, val_main_v16_apply, val_main_v18_apply,
    val_main_cst_1_apply, val_main_cst_2_apply, v15_at]
  rfl

theorem v20_eq : val_main_v20 (F := Ideal) x0 x1 x2 x4 x5 x6
    = fun j => leaky (mm (spmm x4 x5 x6 (stack x0 x1)) (tr x2) j) :=
  funext (v20_at x0 x1 x2 x4 x5 x6)

/-- The second product, entry by entry: a row of A·e2 times a column of W1ᵀ. -/
theorem v35_at (j : S150000x64.Idx) :
    val_main_v35 (F := Ideal) x0 x1 x2 x3 x4 x5 x6 j
      = mm (spmm x4 x5 x6 (fun j => leaky (mm (spmm x4 x5 x6 (stack x0 x1)) (tr x2) j))) (tr x3) j := by
  rw [val_main_v35_apply]
  have e33 : val_main_v33 (F := Ideal) x0 x1 x2 x4 x5 x6
      = spmm x4 x5 x6 (fun j => leaky (mm (spmm x4 x5 x6 (stack x0 x1)) (tr x2) j)) := by
    rw [← v20_eq]; rfl
  rw [e33]
  refine Finset.sum_congr rfl fun k _ => ?_
  have el : lidx_main_v35 j k = ix2 (j 0) k := funext fun a => by match a with | ⟨0, _⟩ => rfl | ⟨1, _⟩ => rfl
  have er : ridx_main_v35 j k = ix2 k (j 1) := funext fun a => by match a with | ⟨0, _⟩ => rfl | ⟨1, _⟩ => rfl
  rw [el, er]
  rfl

/-- The mean of the four stages. -/
theorem v40_eq : val_main_v40 (F := Ideal) x0 x1 x2 x3 x4 x5 x6
    = fun j => (((stack x0 x1 j + mm (spmm x4 x5 x6 (stack x0 x1)) (tr x2) j)
          + leaky (mm (spmm x4 x5 x6 (stack x0 x1)) (tr x2) j))
        + mm (spmm x4 x5 x6 (fun j => leaky (mm (spmm x4 x5 x6 (stack x0 x1)) (tr x2) j))) (tr x3) j)
        * Ideal.ofBits .f32 0x3E800000#32 := by
  funext j
  rw [val_main_v40_apply, val_main_v38_apply, val_main_v37_apply, val_main_v36_apply, val_main_v39_apply,
    val_main_cst_6_apply, v15_at, v20_at, v35_at]
  rfl

end Cert.ReferenceIdeal.RefValue

end
-- ==== Proof.lean ====
/-
  A two-layer graph convolution with a slope activation, averaged over its four stages: with A the 150000×150000
  adjacency given by 2400000 weighted edges, e0 the user rows stacked over the item rows,
      e1 = A·e0·W0ᵀ,   e2 = slope(e1),   e3 = A·e2·W1ᵀ,   result = (e0 + e1 + e2 + e3)·¼,
  cut into its user rows and item rows; slope(x) = x for 0 ≤ x and D·x below, D the single-precision 0.3.

  The reference computes exactly this. The kernel computes the two dense products and the average on a paired
  view of the arrays — 75000 rows of 128, each two node rows side by side — against block-diagonal 128×128
  weight matrices, fifteen row blocks at a time, keeps only e2 from the first layer, and recovers e1 from e2 by
  undoing the slope: y for 0 ≤ y, y·(1/D) below, the reciprocal a named constant whose value is exactly 1/D.
  On the extended reals the two agree at every entry, with no use of finiteness: the block-diagonal product
  only adds terms x·0 = 0 (true at the infinities too), D·x·(1/D) = x for every extended real since D > 0,
  and the sparse product, the stacking and the transposes are the same functions on both sides.

  The frames of the two kernel programs are the generated ones, the reference's is its generated run; the one
  rewrite of the idealization is the named reciprocal's.
-/
import proofs.«176272_j79242146611300_2_alg».proof.Defs
import proofs.«176272_j79242146611300_2_alg».proof.Proof.Gen.Kernel
import proofs.«176272_j79242146611300_2_alg».proof.Proof.Gen.Kernel.Skeleton
import proofs.«176272_j79242146611300_2_alg».proof.Proof.Gen.Kernel.Launch
import proofs.«176272_j79242146611300_2_alg».proof.Proof.Gen.Kernel.Points
import proofs.«176272_j79242146611300_2_alg».proof.Proof.Gen.Kernel.Frame
import proofs.«176272_j79242146611300_2_alg».proof.Proof.Gen.KernelIdeal
import proofs.«176272_j79242146611300_2_alg».proof.Proof.Gen.KernelIdeal.Skeleton
import proofs.«176272_j79242146611300_2_alg».proof.Proof.Gen.KernelIdeal.Launch
import proofs.«176272_j79242146611300_2_alg».proof.Proof.Gen.KernelIdeal.Points
import proofs.«176272_j79242146611300_2_alg».proof.Proof.Gen.KernelIdeal.Frame
import proofs.«176272_j79242146611300_2_alg».proof.Proof.Gen.ReferenceIdeal
import proofs.«176272_j79242146611300_2_alg».proof.Proof.Gen.ReferenceIdeal.Read
import proofs.«176272_j79242146611300_2_alg».proof.Proof.Gen.Pre_finite_inputs
import proofs.«176272_j79242146611300_2_alg».proof.Proof.KValue
import proofs.«176272_j79242146611300_2_alg».proof.Proof.RefValue
import Idealize.ShloMosaic.Adequacy
import Idealize.ShloMosaic.Init

noncomputable section

namespace Cert.Proof

open Idealize.ShloMosaic Idealize.ShloMosaic.TcCoe Idealize.SL.Sem
open Cert.ReferenceIdeal.Shared Cert.GraphConv

/-- The kernel's mean of the four stages, computed on paired rows, is the plain one. -/
theorem stages_eq (m : (ℓ : Loc Cert.KernelIdeal.nD Cert.KernelIdeal.τ Cert.KernelIdeal.sig) → Buf (Elt Ideal) ℓ)
    (c : Dev Cert.KernelIdeal.nD) :
    Cert.KernelIdeal.KValue.allStages m c
      = Cert.ReferenceIdeal.Read.val_main_v40 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) := by
  rw [Cert.ReferenceIdeal.RefValue.v40_eq]
  unfold Cert.KernelIdeal.KValue.allStages Cert.KernelIdeal.KValue.firstLayer
  exact paired_eq_plain _ _ _ _

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The one rewrite of the idealization: the table gives the named reciprocal the value 16777216/5033165. -/
theorem preserves : Cert.preserves_Kernel_KernelIdeal :=
  IdealRules.named_const.statement Cert.KernelIdeal.κ "inv_leaky_alpha" .f32 0x40555555#32
    ((16777216 / 5033165 : ℝ) : EReal) rfl

/-- Both programs end with the user rows and the item rows of one array: the kernel's mean of the four stages
    is the reference's (`stages_eq`), at arguments that agree. -/
theorem algebraic : Cert.algebraic_KernelIdeal_ReferenceIdeal := by
  intro m ρ m' ρ' _ hagree
  refine ⟨_, _, Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v41_eq, stages_eq, (hagree c).1, (hagree c).2.1, (hagree c).2.2.1,
      (hagree c).2.2.2.1, (hagree c).2.2.2.2.1, (hagree c).2.2.2.2.2.1, (hagree c).2.2.2.2.2.2]
    rfl
  · rw [Cert.ReferenceIdeal.Read.val_main_v42_eq, stages_eq, (hagree c).1, (hagree c).2.1, (hagree c).2.2.1,
      (hagree c).2.2.2.1, (hagree c).2.2.2.2.1, (hagree c).2.2.2.2.2.1, (hagree c).2.2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
